-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel

variable [Facts]

def fn {F : FTy → Type} [FloatOps F] (main_arg0 : FVec F S8x4096x768 .f32) (main_arg1 : FVec F S8x4096x768 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S8x4096x768 .f32 := Host.absf main_arg1
  let main_cst_0 : FVec F S_ .f32 := constant S_ .f32 0x7F800000#32
  let main_v5 : FVec F S8x4096x768 .f32 := broadcastInDim S8x4096x768 ![] bcast_S_S8x4096x768 main_cst_0
  let main_v6 : IVec S8x4096x768 1 := cmpf .olt main_v4 main_v5
  let main_c_1 : IVec S_ 1 := constantI S_ 1 1#1
  let main_v7 : IVec S_ 1 := (fun x v => Host.reduce IntOp.andi x v reducesTo_S8x4096x768_S_d0_1_2 h_S_) main_v6 main_c_1
  let main_v8 : IVec S_ 1 := andi main_v3 main_v7
  main_v8
-- ==== Kernel.lean ====
abbrev S8x4096x768 : Shape := ⟨3, ![8, 4096, 768]⟩
abbrev S8x768x4096 : Shape := ⟨3, ![8, 768, 4096]⟩
abbrev S1x4096x256 : Shape := ⟨3, ![1, 4096, 256]⟩
abbrev S1x4096x768 : Shape := ⟨3, ![1, 4096, 768]⟩
abbrev S1x256x4096 : Shape := ⟨3, ![1, 256, 4096]⟩
abbrev S4096x768 : Shape := ⟨2, ![4096, 768]⟩
abbrev S4096x256 : Shape := ⟨2, ![4096, 256]⟩
abbrev S256x768 : Shape := ⟨2, ![256, 768]⟩
abbrev S256 : Shape := ⟨1, ![256]⟩
abbrev S256x1 : Shape := ⟨2, ![256, 1]⟩
abbrev S256x4096 : Shape := ⟨2, ![256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x768, .f32⟩
  | .hbm, ⟨1, _⟩ => ⟨S8x4096x768, .f32⟩
  | .hbm, ⟨2, _⟩ => ⟨S8x768x4096, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x768, .f32⟩
  | .local _ .vmem, ⟨3, _⟩ => ⟨S1x256x4096, .f32⟩
  | .local _ .vmem, ⟨4, _⟩ => ⟨S1x256x4096, .f32⟩
  | .local _ .vmem, ⟨5, _⟩ => ⟨S4096x768, .bf16⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x4096x768_S1x4096x768_0_0_0 : ∀ a, (![0, 0, 0] : Fin 3 → Nat) a + S1x4096x768.size a ≤ S1x4096x768.size a
  h_S1x4096x768 : 0 < S1x4096x768.numel
  shapeCasts_S1x4096x768_S4096x768 : S1x4096x768.ShapeCasts S4096x768
  bitsLt_bf16_f32 : FTy.bits .bf16 < FTy.bits .f32
  inb_S4096x768_S4096x768_0_0 : ∀ a, (![0, 0] : Fin 2 → Nat) a + S4096x768.size a ≤ S4096x768.size a
  h_S4096x768 : 0 < S4096x768.numel
  shapeCasts_S4096x768_S4096x768 : S4096x768.ShapeCasts S4096x768
  packedbf16_S4096x768_S4096x768_0_0 : (Rect.unit (s := S4096x768) ![0, 0] S4096x768.size inb_S4096x768_S4096x768_0_0).PackedRows (EltTy.packing .bf16)
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  reduces_S256x768_S256 : S256x768.Reduces [1] S256
  shapeCasts_S256_S256x1 : S256.ShapeCasts S256x1
  broadcasts_S256x1_S256x768 : S256x1.Broadcasts S256x768
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  dot_S4096x256_S4096x768_S256x768_0_0_1_1_n_n_wf : DotDims.WF S4096x256 S4096x768 S256x768 [0] [0] [1] [1] [] []
  dot_S256x768_S4096x768_S256x4096_1_1_0_0_n_n_wf : DotDims.WF S256x768 S4096x768 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x4096x768.size a
  hwx0_0 : ∀ i : grid0.Coords, EltTy.bits .f32 = 32 ∨ (Rect.block (s := S8x4096x768) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096x768.size a ≤ S8x4096x768.size a
  hwx0_1 : ∀ i : grid0.Coords, EltTy.bits .f32 = 32 ∨ (Rect.block (s := S8x4096x768) S1x4096x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S8x768x4096.size a
  hwx0_2 : ∀ i : grid0.Coords, EltTy.bits .f32 = 32 ∨ (Rect.block (s := S8x768x4096) S1x256x4096.size (cc0_transform_2 i) (hinb0_2 i)).WholeWords (EltTy.packing .f32)

variable [Facts₀]

def dot_S4096x256_S4096x768_S256x768_0_0_1_1_n_n : DotDims S4096x256 S4096x768 S256x768 where
  lhsContracting := [0]
  rhsContracting := [0]
  lhsNonContracting := [1]
  rhsNonContracting := [1]
  lhsBatch := []
  rhsBatch := []
  wf := dot_S4096x256_S4096x768_S256x768_0_0_1_1_n_n_wf
def dot_S256x768_S4096x768_S256x4096_1_1_0_0_n_n : DotDims S256x768 S4096x768 S256x4096 where
  lhsContracting := [1]
  rhsContracting := [1]
  lhsNonContracting := [0]
  rhsNonContracting := [0]
  lhsBatch := []
  rhsBatch := []
  wf := dot_S256x768_S4096x768_S256x4096_1_1_0_0_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x768 : Shape := ⟨3, ![8, 4096, 768]⟩
abbrev S8x768x768 : Shape := ⟨3, ![8, 768, 768]⟩
abbrev S_ : Shape := ⟨0, ![]⟩
abbrev S8x768 : Shape := ⟨2, ![8, 768]⟩
abbrev S8x768x1 : Shape := ⟨3, ![8, 768, 1]⟩
abbrev S8x768x4096 : Shape := ⟨3, ![8, 768, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S8x4096x768, .f32⟩
  | .hbm, ⟨2, _⟩ => ⟨S8x768x768, .f32⟩
  | .hbm, ⟨3, _⟩ => ⟨S_, .f32⟩
  | .hbm, ⟨4, _⟩ => ⟨S8x768x768, .f32⟩
  | .hbm, ⟨5, _⟩ => ⟨S8x768x768, .f32⟩
  | .hbm, ⟨6, _⟩ => ⟨S_, .f32⟩
  | .hbm, ⟨7, _⟩ => ⟨S8x768, .f32⟩
  | .hbm, ⟨8, _⟩ => ⟨S_, .f32⟩
  | .hbm, ⟨9, _⟩ => ⟨S8x768, .f32⟩
  | .hbm, ⟨10, _⟩ => ⟨S8x768, .f32⟩
  | .hbm, ⟨11, _⟩ => ⟨S8x768x1, .f32⟩
  | .hbm, ⟨12, _⟩ => ⟨S8x768x768, .f32⟩
  | .hbm, ⟨13, _⟩ => ⟨S8x768x768, .f32⟩
  | .hbm, ⟨14, _⟩ => ⟨S8x768x768, .f32⟩
  | .hbm, ⟨15, _⟩ => ⟨S_, .f32⟩
  | .hbm, ⟨16, _⟩ => ⟨S8x768, .f32⟩
  | .hbm, ⟨17, _⟩ => ⟨S8x768x1, .f32⟩
  | .hbm, ⟨18, _⟩ => ⟨S8x768x768, .f32⟩
  | .hbm, ⟨19, _⟩ => ⟨S8x768x768, .f32⟩
  | .hbm, ⟨20, _⟩ => ⟨S8x768x4096, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S8x768x768 : S_.BroadcastsInDim S8x768x768 (![] : Fin 0 → Fin S8x768x768.rank)
  reducesTo_S8x768x768_S8x768_d2 : S8x768x768.ReducesTo [2] S8x768
  h_S_ : 0 < S_.numel
  bcast_S_S8x768 : S_.BroadcastsInDim S8x768 (![] : Fin 0 → Fin S8x768.rank)
  bcast_S8x768_S8x768x1_0_1 : S8x768.BroadcastsInDim S8x768x1 (![0, 1] : Fin 2 → Fin S8x768x1.rank)
  bcast_S8x768x1_S8x768x768_0_1_2 : S8x768x1.BroadcastsInDim S8x768x768 (![0, 1, 2] : Fin 3 → Fin S8x768x768.rank)
  dot_S8x4096x768_S8x4096x768_S8x768x768_1_1_2_2_0_0_wf : DotDims.WF S8x4096x768 S8x4096x768 S8x768x768 [1] [1] [2] [2] [0] [0]
  dot_S8x768x768_S8x4096x768_S8x768x4096_2_2_1_1_0_0_wf : DotDims.WF S8x768x768 S8x4096x768 S8x768x4096 [2] [2] [1] [1] [0] [0]

variable [Facts₀]

def dot_S8x4096x768_S8x4096x768_S8x768x768_1_1_2_2_0_0 : DotDims S8x4096x768 S8x4096x768 S8x768x768 where
  lhsContracting := [1]
  rhsContracting := [1]
  lhsNonContracting := [2]
  rhsNonContracting := [2]
  lhsBatch := [0]
  rhsBatch := [0]
  wf := dot_S8x4096x768_S8x4096x768_S8x768x768_1_1_2_2_0_0_wf
def dot_S8x768x768_S8x4096x768_S8x768x4096_2_2_1_1_0_0 : DotDims S8x768x768 S8x4096x768 S8x768x4096 where
  lhsContracting := [2]
  rhsContracting := [2]
  lhsNonContracting := [1]
  rhsNonContracting := [1]
  lhsBatch := [0]
  rhsBatch := [0]
  wf := dot_S8x768x768_S8x4096x768_S8x768x4096_2_2_1_1_0_0_wf

class Facts : Prop extends Facts₀ where

variable [Facts]
-- ==== Proof.Attention.lean ====
/-
  Channel attention of one batch entry, as functions on the extended reals.

  For a batch entry with token rows `n` (4096 of them) and channels (768), a query column `q` (one channel of the first
  input, indexed by token) is scored against every key column `d` of the second input by the scaled inner product over
  tokens; the scores of the row are turned into weights by a softmax taken from the row's largest score; and the result
  at token `n` is the weighted sum over `d` of the second input's entry `(n, d)`.  The whole result array has, at
  `(b, c, n)`, that value for the query column `c` of batch entry `b`.
-/
import Idealize.ShloMosaic.PureOps.Ideal
import Idealize.ShloMosaic.Lib.ValueIdx

noncomputable section

open scoped BigOperators

namespace Cert.Attention

open Idealize.ShloMosaic Idealize.ShloMosaic.ValueIdx

/-- The score scale, 96^(-1/2) rounded to single precision: the one word both programs multiply by. -/
def scale : EReal := Ideal.ofBits .f32 0x3DD105EC#32

/-- What a row's running maximum starts from: the word of −∞. -/
def lowest : EReal := Ideal.ofBits .f32 0xFF800000#32

/-- The score of query column `q` against key column `d`: the inner product over the tokens, scaled. -/
def score (q : Fin 4096 → EReal) (k : Fin 4096 → Fin 768 → EReal) (d : Fin 768) : EReal :=
  (∑ n : Fin 4096, q n * k n d) * scale

/-- The largest score of a row. -/
def peak (s : Fin 768 → EReal) : EReal := (Finset.univ : Finset (Fin 768)).fold max lowest s

/-- The softmax weight of column `d` in a row of scores `s`, taken from the row's largest score. -/
def soft (s : Fin 768 → EReal) (d : Fin 768) : EReal :=
  Ideal.div (Ideal.exp (s d - peak s)) (∑ e : Fin 768, Ideal.exp (s e - peak s))

/-- The attended value at token `n`: the weights of the query's score row against the values `k n ·`. -/
def mix (q : Fin 4096 → EReal) (k : Fin 4096 → Fin 768 → EReal) (n : Fin 4096) : EReal :=
  ∑ d : Fin 768, soft (score q k) d * k n d

/-- The whole result: at `(b, c, n)` the attended value at token `n` of query column `c` of batch entry `b`. -/
def attend (x1 x2 : (⟨3, ![8, 4096, 768]⟩ : Shape).Idx → EReal) : (⟨3, ![8, 768, 4096]⟩ : Shape).Idx → EReal :=
  fun i => mix (fun n => x1 (ix3 (i 0) n (i 1))) (fun n d => x2 (ix3 (i 0) n d)) (i 2)

end Cert.Attention

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibRowMax.lean ====
/-
  The largest entry of each row of a matrix, read at an index — general in the extents.

  Over the extended reals the maximum of an `n × m` matrix along its second axis reads, at `p`, the fold of `max`, from the
  accumulator's value, over the entries `(p, k)` of row `p`: `max` is commutative and associative, so the order in which the
  row is folded does not matter.
-/
import Idealize.ShloMosaic.Lib.ValueIdx
import Idealize.ShloMosaic.PureOps.Ideal.Laws

noncomputable section

namespace Cert.LibRowMax

open Idealize.ShloMosaic Idealize.ShloMosaic.ValueIdx

/-- Over the extended reals the maximum of an `n × m` matrix along its second axis reads, at `p`, the fold of `max` from the
    accumulator's value over `k` of the entries `(p, k)`. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin m)).fold max (Ideal.ofBits φ acc) (fun k : Fin m => src (ix2 p k)) := by
  refine (Ideal.multiReduction_maximumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold max (Ideal.ofBits φ acc) f (Finset.univ : Finset (Fin m))) hf

end Cert.LibRowMax

end
-- ==== Proof.LibRowSoftmax.lean ====
/-
  A row softmax as a vector unit spells it, read at an index — general in the extents.

  For an `n × m` matrix `a` over the extended reals: take each row's maximum (a fold of `max` from the accumulator's
  value), recast it as a column and spread it back over the row, subtract, exponentiate, sum each row, recast and spread
  the sums the same way, and divide.  At `(p, k)` the result is the softmax weight of column `k` in row `p`:
  `exp (a(p,k) − M) / Σₑ exp (a(p,e) − M)` with `M` the fold of `max` over row `p`.  (Needs the column recasts and the
  row sum of LibColumns, and the row maximum of LibRowMax, beside it.)
-/
import proofs.«135664_j75514114998391_2_alg».proof.Proof.LibColumns
import proofs.«135664_j75514114998391_2_alg».proof.Proof.LibRowMax
import Idealize.ShloMosaic.Lib.ValueIdx
import Idealize.ShloMosaic.PureOps.Ideal.Laws

noncomputable section

open scoped BigOperators

namespace Cert.LibRowSoftmax

open Idealize.ShloMosaic Idealize.ShloMosaic.ValueIdx

/-- The softmax weight of column `d` in a row of scores `s`, shifted by the fold of `max` over the row from `init`. -/
def weight {m : ℕ} (init : EReal) (s : Fin m → EReal) (d : Fin m) : EReal :=
  Ideal.div (Ideal.exp (s d - (Finset.univ : Finset (Fin m)).fold max init s))
    (∑ e : Fin m, Ideal.exp (s e - (Finset.univ : Finset (Fin m)).fold max init s))

/-- The row maximum of an `n × m` matrix, recast as a column and spread back over the row, reads at `(p, e)` the fold
    of `max` over row `p`. -/
theorem rowPeak_apply {n m : ℕ} {φ : FTy} (a : FVec Ideal ⟨2, ![n, m]⟩ φ) (accMax : BitVec φ.bits)
    (hred : (⟨2, ![n, m]⟩ : Shape).Reduces [1] ⟨1, ![n]⟩) (hφ : FKind.Formats φ)
    (hmax : accMax = FKind.maximumf.neutral φ hφ)
    (hcast : (⟨1, ![n]⟩ : Shape).ShapeCasts ⟨2, ![n, 1]⟩) (hbc : (⟨2, ![n, 1]⟩ : Shape).Broadcasts ⟨2, ![n, m]⟩)
    (p : Fin n) (e : Fin m) :
    broadcastTo ⟨2, ![n, m]⟩ (shapeCast ⟨2, ![n, 1]⟩ (multiReduction (F := Ideal) .maximumf [1] ⟨1, ![n]⟩ a accMax hred hφ hmax) hcast) hbc (ix2 p e)
      = (Finset.univ : Finset (Fin m)).fold max (Ideal.ofBits φ accMax) (fun k => a (ix2 p k)) :=
  (Cert.LibColumns.broadcastTo_a1_ab_apply _ hbc p e).trans
    ((Cert.LibColumns.shapeCast_a_a1_apply _ hcast p 0).trans (Cert.LibRowMax.rowMax_apply a accMax hred hφ hmax p))

/-- The row softmax — subtract the spread row maximum, exponentiate, divide by the spread row sum — reads, at `(p, k)`,
    the softmax weight of column `k` in row `p`. -/
theorem rowSoftmax_apply {n m : ℕ} {φ : FTy} (a : FVec Ideal ⟨2, ![n, m]⟩ φ) (accMax accSum : BitVec φ.bits)
    (hred : (⟨2, ![n, m]⟩ : Shape).Reduces [1] ⟨1, ![n]⟩) (hφ : FKind.Formats φ)
    (hmax : accMax = FKind.maximumf.neutral φ hφ) (hsum : accSum = FKind.add.neutral φ hφ)
    (hcast : (⟨1, ![n]⟩ : Shape).ShapeCasts ⟨2, ![n, 1]⟩) (hbc : (⟨2, ![n, 1]⟩ : Shape).Broadcasts ⟨2, ![n, m]⟩)
    (p : Fin n) (k : Fin m) :
    divf (exp (subf a (broadcastTo ⟨2, ![n, m]⟩ (shapeCast ⟨2, ![n, 1]⟩ (multiReduction (F := Ideal) .maximumf [1] ⟨1, ![n]⟩ a accMax hred hφ hmax) hcast) hbc)))
        (broadcastTo ⟨2, ![n, m]⟩ (shapeCast ⟨2, ![n, 1]⟩ (multiReduction (F := Ideal) .add [1] ⟨1, ![n]⟩
            (exp (subf a (broadcastTo ⟨2, ![n, m]⟩ (shapeCast ⟨2, ![n, 1]⟩ (multiReduction (F := Ideal) .maximumf [1] ⟨1, ![n]⟩ a accMax hred hφ hmax) hcast) hbc)))
            accSum hred hφ hsum) hcast) hbc) (ix2 p k)
      = weight (Ideal.ofBits φ accMax) (fun e => a (ix2 p e)) k := by
  have hw : ∀ e : Fin m, exp (subf a (broadcastTo ⟨2, ![n, m]⟩ (shapeCast ⟨2, ![n, 1]⟩ (multiReduction (F := Ideal) .maximumf [1] ⟨1, ![n]⟩ a accMax hred hφ hmax) hcast) hbc)) (ix2 p e)
      = Ideal.exp (a (ix2 p e) - (Finset.univ : Finset (Fin m)).fold max (Ideal.ofBits φ accMax) (fun k => a (ix2 p k))) :=
    fun e => congrArg (fun z => Ideal.exp (a (ix2 p e) - z)) (rowPeak_apply a accMax hred hφ hmax hcast hbc p e)
  refine congrArg₂ Ideal.div (hw k) ?_
  refine (Cert.LibColumns.broadcastTo_a1_ab_apply _ hbc p k).trans ?_
  refine (Cert.LibColumns.shapeCast_a_a1_apply _ hcast p 0).trans ?_
  refine (Cert.LibColumns.rowSum_apply _ accSum hred hφ hsum p).trans ?_
  exact Finset.sum_congr rfl fun e _ => hw e

end Cert.LibRowSoftmax

end
-- ==== Proof.LibDotRows.lean ====
/-
  A reusable general lemma: a matrix product that contracts the COLUMNS of both operands, read at an entry.

  The product of an `n` × `K` matrix `l` with the transpose of an `M` × `K` matrix `r` (`l @ r.T`, a linear layer
  whose weight matrix is stored one row per output feature) pairs row `p` of `l` with row `c` of `r`. Its dimension
  numbers index the sum by the contraction shape's positions; when that shape has the one axis of extent `K` and the
  two operand indices at output entry (p, c) and contraction position `k` are (p, k) and (c, k) — four coordinate
  facts a program's literal dimension numbers decide — the sum is `∑ k : Fin K, l (p, k) · r (c, k)`. On the extended
  reals this reads a vector unit's matrix product into a zero accumulator. Stated at any extents.
-/
import Idealize.ShloMosaic.Lib.ValueIdx
import Idealize.ShloMosaic.PureOps.Ideal.Laws

noncomputable section

open scoped BigOperators

namespace Idealize.ShloMosaic.DotRows

open Idealize.ShloMosaic Idealize.ShloMosaic.ValueIdx

/-- The contraction's sum, re-indexed by the one contracted coordinate. -/
theorem sum_contr_eq {n K M : Nat} (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (l : (⟨2, ![n, K]⟩ : Shape).Idx → EReal) (r : (⟨2, ![M, K]⟩ : Shape).Idx → EReal) (p : Fin n) (c : Fin M) :
    ∑ q : D.contr.Idx, l (D.lhsIdx (ix2 p c) q) * r (D.rhsIdx (ix2 p c) q) = ∑ k : Fin K, l (ix2 p k) * r (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 c k := funext fun a => Fin.ext (by
    match a with
    | ⟨0, _⟩ => exact r0 _ _
    | ⟨1, _⟩ => exact (r1 _ _).trans hk)
  rw [el, er]

/-- A vector unit's matrix product into the zero accumulator, at entry (p, c): `∑ k, lhs (p, k) · rhs (c, k)`. -/
theorem matmul_zero_apply {n K M : Nat} {φ₁ φ₂ : FTy}
    (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (prec : Option ContractPrecision) (lhs : FVec Ideal (⟨2, ![n, K]⟩ : Shape) φ₁) (rhs : FVec Ideal (⟨2, ![M, K]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 c k) : EReal) :=
  (Ideal.matmul_constant_zero_apply D prec lhs rhs (ix2 p c)).trans (sum_contr_eq D hr hs l0 l1 r0 r1 lhs rhs p c)

end Idealize.ShloMosaic.DotRows

end
-- ==== Proof.LibGramDot.lean ====
/-
  A matrix product that contracts the ROWS of both operands, read at an entry, for any extents.

  For a `K` × `M` matrix `l` and a `K` × `N` matrix `r`, the product `lᵀ · r` (an einsum "td,te->de") has at entry
  (d, e) the sum over the shared row index `k` of `l (k, d) · r (k, e)`. A program's dimension numbers index that sum by
  the positions of a contraction shape; when the shape has the one axis of extent `K` and the two operand indices at
  output entry (d, e) and contraction position `k` are (k, d) and (k, e) — four coordinate facts the literal dimension
  numbers decide — the sum is the textbook one. On the extended reals this reads a vector unit's matrix product into a
  zero accumulator and the host's `dot_general` alike. With `l = r` it is the Gram matrix of the columns.
-/
import Idealize.ShloMosaic.Lib.ValueIdx
import Idealize.ShloMosaic.PureOps.Ideal.Laws

noncomputable section

open scoped BigOperators

namespace Cert.GramDot

open Idealize.ShloMosaic Idealize.ShloMosaic.ValueIdx

/-- The contraction's sum, re-indexed by the one contracted coordinate (the shared row). -/
theorem sum_contr_eq {K M N : Nat} (D : DotDims (⟨2, ![K, M]⟩ : Shape) (⟨2, ![K, N]⟩ : Shape) (⟨2, ![M, N]⟩ : Shape))
    (hr : D.contr.rank = 1) (hs : D.contr.size ⟨0, by omega⟩ = K)
    (l0 : ∀ (i : (⟨2, ![M, N]⟩ : Shape).Idx) (q : D.contr.Idx), (D.lhsIdx i q 0).val = (q ⟨0, by omega⟩).val)
    (l1 : ∀ (i : (⟨2, ![M, N]⟩ : Shape).Idx) (q : D.contr.Idx), (D.lhsIdx i q 1).val = (i 0).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (l : (⟨2, ![K, M]⟩ : Shape).Idx → EReal) (r : (⟨2, ![K, N]⟩ : Shape).Idx → EReal) (d : Fin M) (e : Fin N) :
    ∑ q : D.contr.Idx, l (D.lhsIdx (ix2 d e) q) * r (D.rhsIdx (ix2 d e) q) = ∑ k : Fin K, l (ix2 k d) * r (ix2 k e) := by
  rw [← Equiv.sum_comp (contrEquiv1 D K hr hs).symm]
  refine Finset.sum_congr rfl fun k _ => ?_
  have hk := contrEquiv1_symm_val D K hr hs k
  have el : D.lhsIdx (ix2 d e) ((contrEquiv1 D K hr hs).symm k) = ix2 k d := funext fun a => Fin.ext (by
    match a with
    | ⟨0, _⟩ => exact (l0 _ _).trans hk
    | ⟨1, _⟩ => exact l1 _ _)
  have er : D.rhsIdx (ix2 d e) ((contrEquiv1 D K hr hs).symm k) = ix2 k e := funext fun a => Fin.ext (by
    match a with
    | ⟨0, _⟩ => exact (r0 _ _).trans hk
    | ⟨1, _⟩ => exact r1 _ _)
  rw [el, er]

/-- A vector unit's matrix product into the zero accumulator, at entry (d, e): `∑ k, lhs (k, d) · rhs (k, e)`. -/
theorem matmul_zero_apply {K M N : Nat} {φ₁ φ₂ : FTy}
    (D : DotDims (⟨2, ![K, M]⟩ : Shape) (⟨2, ![K, N]⟩ : Shape) (⟨2, ![M, N]⟩ : Shape))
    (hr : D.contr.rank = 1) (hs : D.contr.size ⟨0, by omega⟩ = K)
    (l0 : ∀ (i : (⟨2, ![M, N]⟩ : Shape).Idx) (q : D.contr.Idx), (D.lhsIdx i q 0).val = (q ⟨0, by omega⟩).val)
    (l1 : ∀ (i : (⟨2, ![M, N]⟩ : Shape).Idx) (q : D.contr.Idx), (D.lhsIdx i q 1).val = (i 0).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision) (lhs : FVec Ideal (⟨2, ![K, M]⟩ : Shape) φ₁) (rhs : FVec Ideal (⟨2, ![K, N]⟩ : Shape) φ₂)
    (d : Fin M) (e : Fin N) :
    FloatOps.matmul D prec lhs rhs (constant (⟨2, ![M, N]⟩ : Shape) .f32 0x00000000#32) (ix2 d e)
      = ∑ k : Fin K, (lhs (ix2 k d) : EReal) * (rhs (ix2 k e) : EReal) :=
  (Ideal.matmul_constant_zero_apply D prec lhs rhs (ix2 d e)).trans (sum_contr_eq D hr hs l0 l1 r0 r1 lhs rhs d e)

/-- The host's `dot_general`, at entry (d, e): the same sum. -/
theorem dotGeneral_apply {K M N : Nat} {φ₁ φ₂ : FTy}
    (D : DotDims (⟨2, ![K, M]⟩ : Shape) (⟨2, ![K, N]⟩ : Shape) (⟨2, ![M, N]⟩ : Shape))
    (hr : D.contr.rank = 1) (hs : D.contr.size ⟨0, by omega⟩ = K)
    (l0 : ∀ (i : (⟨2, ![M, N]⟩ : Shape).Idx) (q : D.contr.Idx), (D.lhsIdx i q 0).val = (q ⟨0, by omega⟩).val)
    (l1 : ∀ (i : (⟨2, ![M, N]⟩ : Shape).Idx) (q : D.contr.Idx), (D.lhsIdx i q 1).val = (i 0).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision) (sched : HostSchedule)
    (lhs : FVec Ideal (⟨2, ![K, M]⟩ : Shape) φ₁) (rhs : FVec Ideal (⟨2, ![K, N]⟩ : Shape) φ₂) (d : Fin M) (e : Fin N) :
    FloatOps.dotGeneral D prec sched lhs rhs (ix2 d e) = ∑ k : Fin K, (lhs (ix2 k d) : EReal) * (rhs (ix2 k e) : EReal) :=
  (Ideal.dotGeneral_apply D prec sched lhs rhs (ix2 d e)).trans (sum_contr_eq D hr hs l0 l1 r0 r1 lhs rhs d e)

end Cert.GramDot

end
-- ==== Proof.KernelTile.lean ====
/-
  What the kernel's body computes at one grid point, read at an index over the extended reals.

  The body caches the whole `4096 × 768` block of the second input (its first payload: the block itself, a change of
  float format being the identity), and from a `4096 × 256` block `x` of the first input and the cached block `y` it
  stores a `256 × 4096` tile whose entry `(c, n)` is the attended value at token `n` of the query column `x (·, c)`
  against the key/value block `y`: the score matrix `xᵀ · y` scaled, a row softmax from the row maximum, and the
  product of the weights with `yᵀ`.
-/
import proofs.«135664_j75514114998391_2_alg».proof.Proof.Gen.KernelIdeal.Skeleton
import proofs.«135664_j75514114998391_2_alg».proof.Proof.Attention
import proofs.«135664_j75514114998391_2_alg».proof.Proof.LibColumns
import proofs.«135664_j75514114998391_2_alg».proof.Proof.LibRowMax
import proofs.«135664_j75514114998391_2_alg».proof.Proof.LibRowSoftmax
import proofs.«135664_j75514114998391_2_alg».proof.Proof.LibDotRows
import proofs.«135664_j75514114998391_2_alg».proof.Proof.LibGramDot
import Idealize.ShloMosaic.Lib.Pipeline.Value
import Idealize.ShloMosaic.Lib.ValueIdx
import Idealize.ShloMosaic.PureOps.Ideal.Laws

noncomputable section

open scoped BigOperators

namespace Cert.KernelTile

open Cert.KernelIdeal Cert.KernelIdeal.Gen Cert.Attention
open Idealize.ShloMosaic Idealize.ShloMosaic.ValueIdx

/-! ## The cached block -/

/-- The cached copy of the second input's block reads, at `(n, d)`, the block's entry `(0, n, d)`. -/
theorem cache_apply (v24 : Vec Ideal S1x4096x768 .f32) (n : Fin 4096) (d : Fin 768) :
    k0_pay1 (F := Ideal) v24 (ix2 n d) = v24 (ix3 (0 : Fin 1) n d) := by
  unfold k0_pay1
  refine (congrFun (shapeCast_self _ _) (ix2 n d)).trans ?_
  refine shapeCast_apply v24 _ (ix2 n d) (ix3 (0 : Fin 1) n d) ?_
  rw [Shape.rowMajor_val_two, Shape.rowMajor_val_three]
  show (0 * 4096 + n.val) * 768 + d.val = n.val * 768 + d.val
  omega

/-! ## The two matrix products' dimension numbers -/

section Dims

private abbrev D1 := dot_S4096x256_S4096x768_S256x768_0_0_1_1_n_n
private abbrev D2 := dot_S256x768_S4096x768_S256x4096_1_1_0_0_n_n

theorem d1_l0 (i : S256x768.Idx) (q : D1.contr.Idx) : (D1.lhsIdx i q 0).val = (q ⟨0, by decide⟩).val :=
  D1.lhsIdx_val_of_single rfl i q
theorem d1_l1 (i : S256x768.Idx) (q : D1.contr.Idx) : (D1.lhsIdx i q 1).val = (i 0).val := by
  unfold DotDims.lhsIdx
  rw [dif_neg (show ¬(1 : Fin S4096x256.rank) ∈ D1.lhsBatch by decide), dif_pos (show (1 : Fin S4096x256.rank) ∈ D1.lhsNonContracting by decide)]
  rfl
theorem d1_r0 (i : S256x768.Idx) (q : D1.contr.Idx) : (D1.rhsIdx i q 0).val = (q ⟨0, by decide⟩).val :=
  D1.rhsIdx_val_of_single rfl i q
theorem d1_r1 (i : S256x768.Idx) (q : D1.contr.Idx) : (D1.rhsIdx i q 1).val = (i 1).val := by
  unfold DotDims.rhsIdx
  rw [dif_neg (show ¬(1 : Fin S4096x768.rank) ∈ D1.rhsBatch by decide), dif_pos (show (1 : Fin S4096x768.rank) ∈ D1.rhsNonContracting by decide)]
  rfl

theorem d2_l0 (i : S256x4096.Idx) (q : D2.contr.Idx) : (D2.lhsIdx i q 0).val = (i 0).val := by
  unfold DotDims.lhsIdx
  rw [dif_neg (show ¬(0 : Fin S256x768.rank) ∈ D2.lhsBatch by decide), dif_pos (show (0 : Fin S256x768.rank) ∈ D2.lhsNonContracting by decide)]
  rfl
theorem d2_l1 (i : S256x4096.Idx) (q : D2.contr.Idx) : (D2.lhsIdx i q 1).val = (q ⟨0, by decide⟩).val :=
  D2.lhsIdx_val_of_single rfl i q
theorem d2_r0 (i : S256x4096.Idx) (q : D2.contr.Idx) : (D2.rhsIdx i q 0).val = (i 1).val := by
  unfold DotDims.rhsIdx
  rw [dif_neg (show ¬(0 : Fin S4096x768.rank) ∈ D2.rhsBatch by decide), dif_pos (show (0 : Fin S4096x768.rank) ∈ D2.rhsNonContracting by decide)]
  rfl
theorem d2_r1 (i : S256x4096.Idx) (q : D2.contr.Idx) : (D2.rhsIdx i q 1).val = (q ⟨0, by decide⟩).val :=
  D2.rhsIdx_val_of_single rfl i q

end Dims

/-! ## The stages of the tile -/

/-- The scaled score matrix `xᵀ · y` reads, at `(c, d)`, the score of column `c` of `x` against column `d` of `y`. -/
theorem scores_apply (x : FVec Ideal S4096x256 .bf16) (y : FVec Ideal S4096x768 .bf16) (c : Fin 256) (d : Fin 768) :
    mulf (matmul dot_S4096x256_S4096x768_S256x768_0_0_1_1_n_n none x y (constant (F := Ideal) S256x768 .f32 0x00000000#32))
        (broadcast S256x768 (Scalar.ofBits (F := Ideal) .f32 0x3DD105EC#32)) (ix2 c d)
      = score (fun n => x (ix2 n c)) (fun n e => y (ix2 n e)) d :=
  congrArg (· * scale)
    (Cert.GramDot.matmul_zero_apply dot_S4096x256_S4096x768_S256x768_0_0_1_1_n_n rfl rfl d1_l0 d1_l1 d1_r0 d1_r1 none x y c d)

/-- The row softmax as the vector unit spells it — subtract the spread row maximum, exponentiate, divide by the spread
    row sum — reads, at `(c, k)`, the softmax weight of column `k` in row `c`. -/
theorem softRows_apply (a : FVec Ideal S256x768 .f32) (c : Fin 256) (k : Fin 768) :
    divf (exp (subf a (broadcastTo S256x768 (shapeCast S256x1 (multiReduction (F := Ideal) .maximumf [1] S256 a 0xFF800000#32 reduces_S256x768_S256 (.inl rfl) rfl)
          shapeCasts_S256_S256x1) broadcasts_S256x1_S256x768)))
        (broadcastTo S256x768 (shapeCast S256x1 (multiReduction (F := Ideal) .add [1] S256
            (exp (subf a (broadcastTo S256x768 (shapeCast S256x1 (multiReduction (F := Ideal) .maximumf [1] S256 a 0xFF800000#32 reduces_S256x768_S256 (.inl rfl) rfl)
              shapeCasts_S256_S256x1) broadcasts_S256x1_S256x768)))
            0x00000000#32 reduces_S256x768_S256 (.inl rfl) rfl) shapeCasts_S256_S256x1) broadcasts_S256x1_S256x768) (ix2 c k)
      = soft (fun e => a (ix2 c e)) k :=
  Cert.LibRowSoftmax.rowSoftmax_apply a 0xFF800000#32 0x00000000#32 reduces_S256x768_S256 (.inl rfl) rfl rfl
    shapeCasts_S256_S256x1 broadcasts_S256x1_S256x768 c k

/-! ## The tile -/

/-- The stored tile reads, at `(0, c, n)`, the attended value at token `n` of column `c` of the first input's block
    against the cached block. -/
theorem tile_apply (v3 : Vec Ideal S1x4096x256 .f32) (v6 : Vec Ideal S4096x768 .bf16) (z : Fin 1) (c : Fin 256) (n : Fin 4096) :
    k0_pay2 (F := Ideal) v3 v6 (ix3 z c n) = mix (fun r => v3 (ix3 (0 : Fin 1) r c)) (fun r d => v6 (ix2 r d)) n := by
  unfold k0_pay2
  refine (shapeCast_apply _ _ (ix3 z c n) (ix2 c n) ?_).trans ?_
  · rw [Shape.rowMajor_val_two, Shape.rowMajor_val_three]
    show c.val * 4096 + n.val = (z.val * 256 + c.val) * 4096 + n.val
    have := z.isLt
    omega
  refine (Idealize.ShloMosaic.DotRows.matmul_zero_apply (φ₁ := .bf16) (φ₂ := .bf16) dot_S256x768_S4096x768_S256x4096_1_1_0_0_n_n rfl rfl d2_l0 d2_l1 d2_r0 d2_r1 none _ v6 c n).trans ?_
  refine Finset.sum_congr rfl fun d _ => congrArg (· * v6 (ix2 n d)) ?_
  refine (softRows_apply _ c d).trans ?_
  refine congrArg (fun s => soft s d) (funext fun e => ?_)
  refine (scores_apply _ v6 c e).trans ?_
  refine congrArg (fun q => score q (fun r d => v6 (ix2 r d)) e) (funext fun r => ?_)
  refine shapeCast_apply v3 _ (ix2 r c) (ix3 (0 : Fin 1) r c) ?_
  rw [Shape.rowMajor_val_two, Shape.rowMajor_val_three]
  show (0 * 4096 + r.val) * 256 + c.val = r.val * 256 + c.val
  omega

end Cert.KernelTile

end
-- ==== Proof.KernelPieces.lean ====
/-
  What one run of the kernel's body leaves behind, in each of its two control cases, for any float values.

  At the first channel tile of a batch entry the body first copies the second input's block into its cache, then reads
  the cache back and stores the tile computed from the first input's block and that copy.  At the other channel tiles it
  stores nothing into the cache and computes the tile from what the cache already holds.  Each store covers its whole
  buffer, so what a buffer ends with is the stored value itself.
-/
import proofs.«135664_j75514114998391_2_alg».proof.Proof.Gen.KernelIdeal.Frame
import Idealize.ShloMosaic.Lib.Pipeline.Value
import Idealize.ShloMosaic.Lib.Tactic

set_option maxRecDepth 16384

noncomputable section

namespace Cert.KernelPieces

open Cert.KernelIdeal Cert.KernelIdeal.Gen
open Idealize.ShloMosaic Idealize.ShloMosaic.TcCoe Idealize.SL.Sem Idealize.ShloMosaic.Tactic

variable {F : FTy → Type} [FloatOps F]

/-- The components of a pair. -/
theorem pair_fst {α β : Type} (a : α) (b : β) : (a, b).1 = a := rfl
theorem pair_snd {α β : Type} (a : α) (b : β) : (a, b).2 = b := rfl

theorem zeros2 : (![0, 0] : Fin 2 → Nat) = fun _ => 0 := funext fun a => by fin_cases a <;> rfl
theorem zeros3 : (![0, 0, 0] : Fin 3 → Nat) = fun _ => 0 := funext fun a => by fin_cases a <;> rfl

/-- First channel tile: the cache ends holding the copy of the second input's block. -/
theorem cache_first (c : Dev nD) (i : grid0.Coords) (arg2 : Memref sig .tc .vmem S1x4096x256 .f32) (harg2 : arg2.IsWhole) (arg3 : Memref sig .tc .vmem S1x4096x768 .f32) (harg3 : arg3.IsWhole) (arg4 : Memref sig .tc .vmem S1x256x4096 .f32) (harg4 : arg4.IsWhole) (arg5 : Memref sig .tc .vmem S4096x768 .bf16) (harg5 : arg5.IsWhole) (hc0 : cond0_0 i)
    (x0 : Vec F S1x4096x256 .f32) (x1 : Vec F S1x4096x768 .f32) :
    sout0_A_0 c i arg2 harg2 arg3 harg3 arg4 harg4 arg5 harg5 hc0 x0 x1 = k0_pay1 x1 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero zeros2]
  simp only [View.readAt_eq_ld, harg3.read_unread, View.ld_unit_zero (S := S1x4096x768) zeros3]

/-- First channel tile: the output block ends holding the tile of the first input's block and the fresh copy. -/
theorem tile_first (c : Dev nD) (i : grid0.Coords) (arg2 : Memref sig .tc .vmem S1x4096x256 .f32) (harg2 : arg2.IsWhole) (arg3 : Memref sig .tc .vmem S1x4096x768 .f32) (harg3 : arg3.IsWhole) (arg4 : Memref sig .tc .vmem S1x256x4096 .f32) (harg4 : arg4.IsWhole) (arg5 : Memref sig .tc .vmem S4096x768 .bf16) (harg5 : arg5.IsWhole) (hc0 : cond0_0 i)
    (x0 : Vec F S1x4096x256 .f32) (x1 : Vec F S1x4096x768 .f32) :
    out0_A_2 c i arg2 harg2 arg3 harg3 arg4 harg4 arg5 harg5 hc0 x0 x1 = k0_pay2 x0 (k0_pay1 x1) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero zeros3, View.readCov_unit_zero (S := S4096x768) _ zeros2]
  simp only [View.readAt_eq_ld, harg2.read_unread, harg3.read_unread, View.ld_unit_zero (S := S1x4096x256) zeros3,
    View.ld_unit_zero (S := S1x4096x768) zeros3]

/-- Later channel tiles: the cache is not stored into; it holds what it held. -/
theorem cache_later (c : Dev nD) (i : grid0.Coords) (arg2 : Memref sig .tc .vmem S1x4096x256 .f32) (harg2 : arg2.IsWhole) (arg3 : Memref sig .tc .vmem S1x4096x768 .f32) (harg3 : arg3.IsWhole) (arg4 : Memref sig .tc .vmem S1x256x4096 .f32) (harg4 : arg4.IsWhole) (arg5 : Memref sig .tc .vmem S4096x768 .bf16) (harg5 : arg5.IsWhole) (hc0 : ¬cond0_0 i)
    (x0 : Vec F S1x4096x256 .f32) (x1 : Vec F S1x4096x768 .f32) (xs0 : Vec F S4096x768 .bf16) :
    sout0_B_0 c i arg2 harg2 arg3 harg3 arg4 harg4 arg5 harg5 hc0 x0 x1 xs0 = xs0 := rfl

/-- Later channel tiles: the output block ends holding the tile of the first input's block and what the cache held. -/
theorem tile_later (c : Dev nD) (i : grid0.Coords) (arg2 : Memref sig .tc .vmem S1x4096x256 .f32) (harg2 : arg2.IsWhole) (arg3 : Memref sig .tc .vmem S1x4096x768 .f32) (harg3 : arg3.IsWhole) (arg4 : Memref sig .tc .vmem S1x256x4096 .f32) (harg4 : arg4.IsWhole) (arg5 : Memref sig .tc .vmem S4096x768 .bf16) (harg5 : arg5.IsWhole) (hc0 : ¬cond0_0 i)
    (x0 : Vec F S1x4096x256 .f32) (x1 : Vec F S1x4096x768 .f32) (xs0 : Vec F S4096x768 .bf16) :
    out0_B_2 c i arg2 harg2 arg3 harg3 arg4 harg4 arg5 harg5 hc0 x0 x1 xs0 = k0_pay2 x0 xs0 := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  rw [View.canon_unit_zero zeros3]
  simp only [View.readAt_eq_ld, harg2.read_unread, harg5.read_unread, View.ld_unit_zero (S := S1x4096x256) zeros3,
    View.ld_unit_zero (S := S4096x768) zeros2]

end Cert.KernelPieces

end
-- ==== Proof.KernelValue.lean ====
/-
  The kernel's result array, over the extended reals, is the channel attention of its two arguments.

  The grid has 24 points: point `t` works on batch entry `t / 3` and channel tile `t % 3`.  Its first input block is
  the 256 channels `256 · (t % 3) …` of batch entry `t / 3` of the first argument, over all tokens; its second input
  block is the whole batch entry `t / 3` of the second argument; its output block is rows `256 · (t % 3) …` of batch
  entry `t / 3` of the result.  The cache is refreshed at the first tile of each batch entry and kept for the other two,
  so after every point it holds batch entry `t / 3` of the second argument (induction on the point).  Hence what point
  `t` writes back is block `t` of the attention array, and the 24 blocks cover the result.
-/
import proofs.«135664_j75514114998391_2_alg».proof.Proof.Gen.KernelIdeal.Value
import proofs.«135664_j75514114998391_2_alg».proof.Proof.KernelTile
import proofs.«135664_j75514114998391_2_alg».proof.Proof.KernelPieces
import Idealize.ShloMosaic.Lib.Pipeline.Value

noncomputable section

namespace Cert.KernelValue

open Cert.KernelIdeal Cert.KernelIdeal.Gen Cert.Attention Cert.KernelTile Cert.KernelPieces
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where each point's blocks lie -/

/-- The three index maps over the 24 points: batch entry `t / 3` on the first axis; the channel tile `t % 3` on the
    first input's last axis and on the result's middle axis; zero elsewhere. -/
theorem maps : ∀ t : Fin cfg0.N,
    win0_0.index t (0 : Fin 3) = t.val / 3 ∧ win0_0.index t (1 : Fin 3) = 0 ∧ win0_0.index t (2 : Fin 3) = t.val % 3
    ∧ win0_1.index t (0 : Fin 3) = t.val / 3 ∧ win0_1.index t (1 : Fin 3) = 0 ∧ win0_1.index t (2 : Fin 3) = 0
    ∧ win0_2.index t (0 : Fin 3) = t.val / 3 ∧ win0_2.index t (1 : Fin 3) = t.val % 3 ∧ win0_2.index t (2 : Fin 3) = 0 :=
  (by decide +kernel : ∀ t : Fin grid0.N, _)

/-- The batch entry point `n` works on. -/
def batchAt (n : ℕ) (h : n < cfg0.N) : Fin 8 := ⟨n / 3, by have : cfg0.N = 24 := N_0; omega⟩

/-- The first input's block at point `t` holds channels `256 · (t % 3) + ·` of batch entry `t / 3`. -/
theorem block0_apply (c : Dev nD) (t : Fin cfg0.N) (x : S1x4096x256.Idx) (k : S8x4096x768.Idx)
    (h0 : (k 0).val = t.val / 3) (h1 : (k 1).val = (x 1).val) (h2 : (k 2).val = t.val % 3 * 256 + (x 2).val) :
    (iblk m c 0 t : Vec Ideal S1x4096x256 .f32) x = (m ((c : Thread nD τ).loc main_arg0) : S8x4096x768.Idx → EReal) k := by
  obtain ⟨e0, e1, e2, -⟩ := maps t
  have hx : (x 0).val < 1 := (x 0).isLt
  unfold iblk
  rw [View.read_apply]
  show V m c main_arg0 _ = m (c.tc.loc main_arg0) _
  unfold V
  congr 1
  funext a
  apply Fin.ext
  match a with
  | ⟨0, _⟩ => show win0_0.index t 0 * 1 + 1 * (x 0).val = (k 0).val; rw [e0, h0]; omega
  | ⟨1, _⟩ => show win0_0.index t 1 * 4096 + 1 * (x 1).val = (k 1).val; rw [e1, h1]; omega
  | ⟨2, _⟩ => show win0_0.index t 2 * 256 + 1 * (x 2).val = (k 2).val; rw [e2, h2]; omega

/-- The second input's block at point `t` is batch entry `t / 3`. -/
theorem block1_apply (c : Dev nD) (t : Fin cfg0.N) (x : S1x4096x768.Idx) (k : S8x4096x768.Idx)
    (h0 : (k 0).val = t.val / 3) (h1 : (k 1).val = (x 1).val) (h2 : (k 2).val = (x 2).val) :
    (iblk m c 1 t : Vec Ideal S1x4096x768 .f32) x = (m ((c : Thread nD τ).loc main_arg1) : S8x4096x768.Idx → EReal) k := by
  obtain ⟨-, -, -, e0, e1, e2, -⟩ := maps t
  have hx : (x 0).val < 1 := (x 0).isLt
  unfold iblk
  rw [View.read_apply]
  show V m c main_arg1 _ = m (c.tc.loc main_arg1) _
  unfold V
  congr 1
  funext a
  apply Fin.ext
  match a with
  | ⟨0, _⟩ => show win0_1.index t 0 * 1 + 1 * (x 0).val = (k 0).val; rw [e0, h0]; omega
  | ⟨1, _⟩ => show win0_1.index t 1 * 4096 + 1 * (x 1).val = (k 1).val; rw [e1, h1]; omega
  | ⟨2, _⟩ => show win0_1.index t 2 * 768 + 1 * (x 2).val = (k 2).val; rw [e2, h2]; omega

/-! ## The cache after each point -/

/-- Batch entry `b` of the second argument as a `4096 × 768` block. -/
def keys (c : Dev nD) (b : Fin 8) : Vec Ideal S4096x768 .bf16 :=
  fun y => (m ((c : Thread nD τ).loc main_arg1) : S8x4096x768.Idx → EReal) (ix3 b (y 0) (y 1))

/-- The copy made at point `t` from its second input block is batch entry `t / 3` of the second argument. -/
theorem copy_eq (c : Dev nD) (t : Fin cfg0.N) :
    k0_pay1 (F := Ideal) (iblk m c 1 t) = keys m c (batchAt t.val t.isLt) :=
  funext fun y => (congrArg (k0_pay1 (F := Ideal) (iblk m c 1 t)) (eq_ix2 y)).trans
    ((cache_apply (iblk m c 1 t) (y 0) (y 1)).trans
      (block1_apply m c t (ix3 (0 : Fin 1) (y 0) (y 1)) (ix3 (batchAt t.val t.isLt) (y 0) (y 1)) rfl rfl rfl))

/-- At a first tile the cache is refreshed: it ends holding the batch entry the point works on. -/
theorem cache_fresh (c : Dev nD) (t : Fin cfg0.N) (h0 : t.val % 3 = 0) :
    (outsAt0 m c t.val t.isLt).2 = keys m c (batchAt t.val t.isLt) :=
  (congrArg Prod.snd (outsAt0_A m c t h0)).trans <| (pair_snd _ _).trans
    ((cache_first (F := Ideal) c (grid0.coords t) (ms0_0 t) (hs0_0 t) (ms0_1 t) (hs0_1 t) (ms0_2 t) (hs0_2 t) scM0_0 (Memref.isWhole_whole _) ((hcond0_0 t).mpr h0) (iblk m c 0 t) (iblk m c 1 t)).trans (copy_eq m c t))

/-- At the other tiles the cache is kept: it holds what the point before left. -/
theorem cache_kept (c : Dev nD) (t : Fin cfg0.N) (h0 : ¬t.val % 3 = 0) :
    (outsAt0 m c t.val t.isLt).2 = (outsAt0 m c (t.val - 1) (Nat.lt_of_le_of_lt (Nat.sub_le _ _) t.isLt)).2 :=
  (congrArg Prod.snd (outsAt0_B m c t h0)).trans <| (pair_snd _ _).trans
    (cache_later (F := Ideal) c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2)

/-- After every point the cache holds the batch entry the point works on: refreshed at a first tile, kept at the
    other tiles, which work on the same batch entry as the point before. -/
theorem cache_eq (c : Dev nD) : ∀ (n : ℕ) (h : n < cfg0.N), (outsAt0 m c n h).2 = keys m c (batchAt n h) := by
  intro n
  induction n with
  | zero => intro h; exact cache_fresh m c ⟨0, h⟩ rfl
  | succ n ih =>
    intro h
    by_cases h0 : (n + 1) % 3 = 0
    · exact cache_fresh m c ⟨n + 1, h⟩ h0
    · refine (cache_kept m c ⟨n + 1, h⟩ h0).trans ?_
      show (outsAt0 m c n _).2 = _
      refine (ih _).trans (congrArg (keys m c) (Fin.ext ?_))
      show n / 3 = (n + 1) / 3
      omega

/-! ## What each point writes back -/

/-- After point `t` the output's staging block holds the tile of the point's first input block against batch entry
    `t / 3` of the second argument. -/
theorem tile_eq (c : Dev nD) (t : Fin cfg0.N) :
    (outsAt0 m c t.val t.isLt).1 = k0_pay2 (F := Ideal) (iblk m c 0 t) (keys m c (batchAt t.val t.isLt)) := by
  by_cases h0 : t.val % 3 = 0
  · refine (congrArg Prod.fst (outsAt0_A m c t h0)).trans ?_
    refine (pair_fst _ _).trans ?_
    refine (tile_first (F := Ideal) c (grid0.coords t) (ms0_0 t) (hs0_0 t) (ms0_1 t) (hs0_1 t) (ms0_2 t) (hs0_2 t) scM0_0 (Memref.isWhole_whole _) ((hcond0_0 t).mpr h0) (iblk m c 0 t) (iblk m c 1 t)).trans ?_
    exact congrArg (k0_pay2 (F := Ideal) (iblk m c 0 t)) (copy_eq m c t)
  · refine (congrArg Prod.fst (outsAt0_B m c t h0)).trans ?_
    refine (pair_fst _ _).trans ?_
    refine (tile_later (F := Ideal) c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2).trans ?_
    refine congrArg (k0_pay2 (F := Ideal) (iblk m c 0 t)) ?_
    refine (cache_eq m c (t.val - 1) _).trans (congrArg (keys m c) (Fin.ext ?_))
    show (t.val - 1) / 3 = t.val / 3
    omega

/-- That tile, at a block index `j`, is the attention array at the array index `k` under it. -/
theorem tile_block (c : Dev nD) (t : Fin cfg0.N) (j : S1x256x4096.Idx) (k : S8x768x4096.Idx)
    (h0 : (k 0).val = t.val / 3) (h1 : (k 1).val = t.val % 3 * 256 + (j 1).val) (h2 : (k 2).val = (j 2).val) :
    k0_pay2 (F := Ideal) (iblk m c 0 t) (keys m c (batchAt t.val t.isLt)) j
      = attend (m ((c : Thread nD τ).loc main_arg0)) (m ((c : Thread nD τ).loc main_arg1)) k := by
  refine (congrArg (k0_pay2 (F := Ideal) (iblk m c 0 t) (keys m c (batchAt t.val t.isLt))) (eq_ix3 j)).trans ?_
  refine (tile_apply (iblk m c 0 t) (keys m c (batchAt t.val t.isLt)) (j 0) (j 1) (j 2)).trans ?_
  have hb : batchAt t.val t.isLt = k 0 := Fin.ext h0.symm
  have hq : (fun r : Fin 4096 => (iblk m c 0 t : Vec Ideal S1x4096x256 .f32) (ix3 (0 : Fin 1) r (j 1)))
      = fun r => (m ((c : Thread nD τ).loc main_arg0) : S8x4096x768.Idx → EReal) (ix3 (k 0) r (k 1)) :=
    funext fun r => block0_apply m c t (ix3 (0 : Fin 1) r (j 1)) (ix3 (k 0) r (k 1)) h0 rfl h1
  have hk : (fun (r : Fin 4096) (d : Fin 768) => keys m c (batchAt t.val t.isLt) (ix2 r d))
      = fun r d => (m ((c : Thread nD τ).loc main_arg1) : S8x4096x768.Idx → EReal) (ix3 (k 0) r d) := by
    rw [hb]; rfl
  have hn : (j 2 : Fin 4096) = k 2 := Fin.ext h2.symm
  unfold attend
  rw [hq, hk, hn]

/-- WHAT POINT `t` WRITES BACK is block `t` of the attention array of the two arguments. -/
theorem flushed_eq (c : Dev nD) (t : Fin cfg0.N) :
    (dats m 0 c).flushed 2 t = ((cfg0.win 2).blk t).view.read (Elt Ideal)
      (attend (m ((c : Thread nD τ).loc main_arg0)) (m ((c : Thread nD τ).loc main_arg1))) := by
  rw [Cert.KernelIdeal.Value.flushed2 m c t, tile_eq m c t]
  obtain ⟨-, -, -, -, -, -, e0, e1, e2⟩ := maps t
  funext j
  have hj : (j 0).val < 1 := (j 0).isLt
  refine tile_block m c t j (((cfg0.win 2).blk t).view.emb j) ?_ ?_ ?_
  · show win0_2.index t 0 * 1 + 1 * (j 0).val = t.val / 3; rw [e0]; omega
  · show win0_2.index t 1 * 256 + 1 * (j 1).val = t.val % 3 * 256 + (j 1).val; rw [e1]; omega
  · show win0_2.index t 2 * 4096 + 1 * (j 2).val = (j 2).val; rw [e2]; omega

/-! ## The blocks cover the result -/

/-- An index of the result is in point `t`'s block iff each coordinate is in the block's range on its axis. -/
theorem mem_blk (t : Fin cfg0.N) (i : S8x768x4096.Idx) :
    i ∈ ((cfg0.win 2).blk t).view.set ↔ ∀ a : Fin 3, win0_2.index t a * S1x256x4096.size a ≤ (i a).val ∧ (i a).val < win0_2.index t a * S1x256x4096.size a + S1x256x4096.size a := by
  show i ∈ ((View.whole main_v0).slice (win0_2.rect t)).set ↔ _
  rw [View.set_slice_whole, Rect.mem_set_unit]
  exact Iff.rfl

/-- Entry `(b, r, n)` of the result lies in the block of point `3 b + r / 256`. -/
theorem cover (i : S8x768x4096.Idx) :
    ∃ t : Fin cfg0.N, (cfg0.win 2).flush t = true ∧ i ∈ ((cfg0.win 2).blk t).view.set := by
  have h0 : (i 0).val < 8 := (i 0).isLt
  have h1 : (i 1).val < 768 := (i 1).isLt
  have h2 : (i 2).val < 4096 := (i 2).isLt
  have hN : cfg0.N = 24 := N_0
  have ht : (i 0).val * 3 + (i 1).val / 256 < cfg0.N := by omega
  refine ⟨⟨(i 0).val * 3 + (i 1).val / 256, ht⟩, flush0_2 _, ?_⟩
  rw [mem_blk]
  obtain ⟨-, -, -, -, -, -, e0, e1, e2⟩ := maps ⟨(i 0).val * 3 + (i 1).val / 256, ht⟩
  intro a
  match a with
  | ⟨0, _⟩ =>
    show win0_2.index ⟨(i 0).val * 3 + (i 1).val / 256, ht⟩ 0 * 1 ≤ (i 0).val ∧ (i 0).val < win0_2.index ⟨(i 0).val * 3 + (i 1).val / 256, ht⟩ 0 * 1 + 1
    rw [e0]; show ((i 0).val * 3 + (i 1).val / 256) / 3 * 1 ≤ (i 0).val ∧ (i 0).val < ((i 0).val * 3 + (i 1).val / 256) / 3 * 1 + 1; omega
  | ⟨1, _⟩ =>
    show win0_2.index ⟨(i 0).val * 3 + (i 1).val / 256, ht⟩ 1 * 256 ≤ (i 1).val ∧ (i 1).val < win0_2.index ⟨(i 0).val * 3 + (i 1).val / 256, ht⟩ 1 * 256 + 256
    rw [e1]; show ((i 0).val * 3 + (i 1).val / 256) % 3 * 256 ≤ (i 1).val ∧ (i 1).val < ((i 0).val * 3 + (i 1).val / 256) % 3 * 256 + 256; omega
  | ⟨2, _⟩ =>
    show win0_2.index ⟨(i 0).val * 3 + (i 1).val / 256, ht⟩ 2 * 4096 ≤ (i 2).val ∧ (i 2).val < win0_2.index ⟨(i 0).val * 3 + (i 1).val / 256, ht⟩ 2 * 4096 + 4096
    rw [e2]; omega

/-! ## The result array and the run -/

/-- After the run the result array holds the attention array of the two arguments. -/
theorem final (c : Dev nD) :
    (dats m 0 c).arrAt 2 cfg0.N = attend (m ((c : Thread nD τ).loc main_arg0)) (m ((c : Thread nD τ).loc main_arg1)) :=
  (dats m 0 c).arrAt_eq_of_cover 2 _ (fun t _ => flushed_eq m c t) cover

/-- Every weakly fair execution of the kernel's program terminates with the result array at the attention array of the
    arguments, and the arguments unchanged. -/
theorem run : θ_run defs (onTc (τ := τ) (main (F := Ideal))) ⟨m, fun _ => 0, ρ⟩ fun r => ∀ c : Dev nD,
      r.2.mem ((c : Thread nD τ).loc main_v0) = attend (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelValue

end
-- ==== Proof.LibHostLastMax.lean ====
/-
  The host's largest entry along the last axis of a rank-3 array, read at an index — general in the extents.

  A one-operand reduction with a maximum body along the last axis of an `a × b × c` array reads, at `(p, q)`, the fold
  of `max`, from the initial value, over the entries `(p, q, k)`: over the extended reals `max` is commutative and
  associative, so the order of the fold does not matter.  And taking the maximum of such a fold with its own starting
  value once more changes nothing (a softmax's row maximum is printed that way).
-/
import Idealize.ShloMosaic.Lib.ValueIdx
import Idealize.ShloMosaic.PureOps.Ideal.Laws

noncomputable section

namespace Cert.LibHostLastMax

open Idealize.ShloMosaic Idealize.ShloMosaic.ValueIdx

/-- Over the extended reals the host's reduction by `max` of an `a × b × c` array along its last axis reads, at
    `(p, q)`, the fold of `max` from the initial value over `k` of the entries `(p, q, k)`. -/
theorem hostLastMax_apply {a b c : ℕ} {φ : FTy} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce FloatOps.maximumf x init h' hu (ix2 p q)
      = (Finset.univ : Finset (Fin c)).fold max (init (Shape.Idx.first hu)) (fun k : Fin c => x (ix3 p q k)) := by
  refine (Host.reduce_eq_fold_single FloatOps.maximumf x init h' h hu (ix2 p q)).trans ?_
  have hf : (x ∘ h.lift (ix2 p q)) = fun k : Fin c => x (ix3 p q k) := funext fun k => congrArg x
    (funext fun d => Fin.ext (by match d with | ⟨0, _⟩ => rfl | ⟨1, _⟩ => rfl | ⟨2, _⟩ => rfl))
  exact congrArg (fun f => Finset.fold max (init (Shape.Idx.first hu)) f (Finset.univ : Finset (Fin c))) hf

/-- The maximum of a fold of `max` with the fold's own starting value is the fold. -/
theorem max_init_fold {ι : Type} (s : Finset ι) (init : EReal) (f : ι → EReal) :
    max init (s.fold max init f) = s.fold max init f :=
  max_eq_right ((Finset.le_fold_max init).mpr (Or.inl le_rfl))

end Cert.LibHostLastMax

end
-- ==== Proof.ReferenceValue.lean ====
/-
  The reference's result, over the extended reals, is the channel attention of its two arguments.

  The reference forms the score tensor `(b, c, d) ↦ Σₙ x₁(b, n, c) · x₂(b, n, d)` scaled, takes each row's maximum along
  `d` (then once more the maximum with −∞, which changes nothing), subtracts it, exponentiates, divides by the row sum
  (started from zero), and contracts the weights with `x₂(b, n, ·)`.  Stage by stage, at an index, this is the row
  softmax of the scores followed by the weighted sum.
-/
import proofs.«135664_j75514114998391_2_alg».proof.Proof.Gen.ReferenceIdeal.Read
import proofs.«135664_j75514114998391_2_alg».proof.Proof.Attention
import proofs.«135664_j75514114998391_2_alg».proof.Proof.LibHostLastMax
import Idealize.ShloMosaic.Lib.ValueIdx
import Idealize.ShloMosaic.PureOps.Ideal.Laws

noncomputable section

open scoped BigOperators

namespace Cert.ReferenceValue

open Cert.ReferenceIdeal Cert.ReferenceIdeal.Gen Cert.ReferenceIdeal.Read Cert.Attention
open Idealize.ShloMosaic Idealize.ShloMosaic.ValueIdx

variable (x0 x1 : S8x4096x768.Idx → EReal)

/-- The query column `c` of batch entry `b`, by token. -/
abbrev query (b : Fin 8) (c : Fin 768) : Fin 4096 → EReal := fun n => x0 (ix3 b n c)
/-- The key/value block of batch entry `b`. -/
abbrev block (b : Fin 8) : Fin 4096 → Fin 768 → EReal := fun n d => x1 (ix3 b n d)

/-- The scaled score tensor at `(b, c, e)`. -/
theorem scores_apply (b : Fin 8) (c e : Fin 768) :
    val_main_v2 (F := Ideal) x0 x1 (ix3 b c e) = score (query x0 b c) (block x1 b) e := by
  rw [val_main_v2_apply, val_main_v0_apply, val_main_v1_apply, val_main_cst_apply]
  have el : ∀ n : Fin 4096, lidx_main_v0 (ix3 b c e) n = ix3 b n c := fun n => funext fun a => by
    match a with | ⟨0, _⟩ => rfl | ⟨1, _⟩ => rfl | ⟨2, _⟩ => rfl
  have er : ∀ n : Fin 4096, ridx_main_v0 (ix3 b c e) n = ix3 b n e := fun n => funext fun a => by
    match a with | ⟨0, _⟩ => rfl | ⟨1, _⟩ => rfl | ⟨2, _⟩ => rfl
  simp only [el, er]
  rfl

/-- A row's maximum, taken once more against −∞, is the largest score of the row. -/
theorem peak_apply (b : Fin 8) (c : Fin 768) :
    val_main_v5 (F := Ideal) x0 x1 (ix2 b c) = peak (score (query x0 b c) (block x1 b)) := by
  rw [val_main_v5_apply, val_main_v4_apply, val_main_cst_1_apply]
  have h3 : val_main_v3 (F := Ideal) x0 x1 (ix2 b c) = peak (score (query x0 b c) (block x1 b)) := by
    unfold val_main_v3
    refine (Cert.LibHostLastMax.hostLastMax_apply (φ := .f32) (val_main_v2 (F := Ideal) x0 x1) (val_main_cst_0 (F := Ideal))
      reducesTo_S8x768x768_S8x768_d2 (by decide) h_S_ b c).trans ?_
    unfold peak
    exact congrArg (fun f => Finset.fold max lowest f (Finset.univ : Finset (Fin 768)))
      (funext fun e => scores_apply x0 x1 b c e)
  rw [h3]
  exact Cert.LibHostLastMax.max_init_fold _ _ _

/-- The exponentiated, shifted scores at `(b, c, e)`. -/
theorem weight_apply (b : Fin 8) (c e : Fin 768) :
    val_main_v9 (F := Ideal) x0 x1 (ix3 b c e)
      = Ideal.exp (score (query x0 b c) (block x1 b) e - peak (score (query x0 b c) (block x1 b))) := by
  rw [val_main_v9_apply, val_main_v8_apply, val_main_v7_apply, val_main_v6_apply, scores_apply]
  have e1 : idx_main_v6 (idx_main_v7 (ix3 b c e)) = ix2 b c := funext fun a => by
    match a with | ⟨0, _⟩ => rfl | ⟨1, _⟩ => rfl
  rw [e1, peak_apply]
  rfl

/-- The row sums at `(b, c)`. -/
theorem mass_apply (b : Fin 8) (c : Fin 768) :
    val_main_v10 (F := Ideal) x0 x1 (ix2 b c)
      = ∑ e : Fin 768, Ideal.exp (score (query x0 b c) (block x1 b) e - peak (score (query x0 b c) (block x1 b))) := by
  rw [val_main_v10_apply, val_main_cst_2_apply]
  show Ideal.ofBits .f32 0x00000000#32 + _ = _
  rw [Ideal.ofBits_zero_f32, zero_add]
  refine Finset.sum_congr rfl fun e _ => ?_
  have e1 : idx_main_v10 (ix2 b c) e = ix3 b c e := funext fun a => by
    match a with | ⟨0, _⟩ => rfl | ⟨1, _⟩ => rfl | ⟨2, _⟩ => rfl
  rw [e1, weight_apply]

/-- The softmax weights at `(b, c, e)`. -/
theorem soft_apply (b : Fin 8) (c e : Fin 768) :
    val_main_v13 (F := Ideal) x0 x1 (ix3 b c e) = soft (score (query x0 b c) (block x1 b)) e := by
  rw [val_main_v13_apply, val_main_v12_apply, val_main_v11_apply, weight_apply]
  have e1 : idx_main_v11 (idx_main_v12 (ix3 b c e)) = ix2 b c := funext fun a => by
    match a with | ⟨0, _⟩ => rfl | ⟨1, _⟩ => rfl
  rw [e1, mass_apply]
  rfl

/-- THE REFERENCE'S RESULT is the attention array of its arguments. -/
theorem result_eq : val_main_v14 (F := Ideal) x0 x1 = attend x0 x1 := by
  funext i
  obtain ⟨b, c, n, rfl⟩ : ∃ (b : Fin 8) (c : Fin 768) (n : Fin 4096), i = ix3 b c n := ⟨i 0, i 1, i 2, eq_ix3 i⟩
  rw [val_main_v14_apply]
  show _ = ∑ d : Fin 768, soft (score (query x0 b c) (block x1 b)) d * x1 (ix3 b n d)
  refine Finset.sum_congr rfl fun d _ => ?_
  have el : lidx_main_v14 (ix3 b c n) d = ix3 b c d := funext fun a => by
    match a with | ⟨0, _⟩ => rfl | ⟨1, _⟩ => rfl | ⟨2, _⟩ => rfl
  have er : ridx_main_v14 (ix3 b c n) d = ix3 b n d := funext fun a => by
    match a with | ⟨0, _⟩ => rfl | ⟨1, _⟩ => rfl | ⟨2, _⟩ => rfl
  rw [el, er, soft_apply]

end Cert.ReferenceValue

end
-- ==== Proof.lean ====
/-
  Channel attention on a tiled kernel against its plain reference, equal over the extended reals.

  Both programs take two arrays `x₁, x₂` of shape `[8, 4096, 768]` (batch, token, channel) and produce `[8, 768, 4096]`:
  for batch entry `b` and query channel `c`, the scores `s(d) = (Σₙ x₁(b, n, c) · x₂(b, n, d)) · scale` against every key
  channel `d`, their softmax `w(d) = exp(s(d) − max s) / Σₑ exp(s(e) − max s)`, and the result `Σ_d w(d) · x₂(b, n, d)` at
  token `n` (Proof/Attention.lean).

  The kernel works through a grid of 8 × 3 points, one batch entry and one tile of 256 query channels at a time; it keeps
  a copy of the batch entry of `x₂` in a cache that it refreshes at the first tile of each batch entry and reuses for the
  other two.  Per point it computes exactly the formula above for its 256 channels (Proof/KernelTile.lean: the two matrix
  products as plain sums, the row maximum as a fold of `max`, the row sum as a plain sum; a change of float format is the
  identity); by induction on the point the cache always holds the batch entry being worked on, and the 24 output blocks
  tile the result (Proof/KernelValue.lean).  The reference computes the same formula with whole-array operations
  (Proof/ReferenceValue.lean); its extra maximum of the row maximum with −∞ changes nothing, and its row sum starts from
  zero.  Both sides are the same sums of the same terms, so no finiteness of the inputs is used.
-/
import proofs.«135664_j75514114998391_2_alg».proof.Defs
import proofs.«135664_j75514114998391_2_alg».proof.Proof.Gen.Kernel
import proofs.«135664_j75514114998391_2_alg».proof.Proof.Gen.Kernel.Frame
import proofs.«135664_j75514114998391_2_alg».proof.Proof.Gen.KernelIdeal
import proofs.«135664_j75514114998391_2_alg».proof.Proof.Gen.KernelIdeal.Frame
import proofs.«135664_j75514114998391_2_alg».proof.Proof.Gen.KernelIdeal.Value
import proofs.«135664_j75514114998391_2_alg».proof.Proof.Gen.ReferenceIdeal
import proofs.«135664_j75514114998391_2_alg».proof.Proof.Gen.ReferenceIdeal.Run
import proofs.«135664_j75514114998391_2_alg».proof.Proof.Gen.ReferenceIdeal.Read
import proofs.«135664_j75514114998391_2_alg».proof.Proof.Gen.Pre_finite_inputs
import proofs.«135664_j75514114998391_2_alg».proof.Proof.KernelValue
import proofs.«135664_j75514114998391_2_alg».proof.Proof.ReferenceValue

noncomputable section

namespace Cert.Proof

open Idealize.ShloMosaic Idealize.ShloMosaic.TcCoe Idealize.SL.Sem

/-- The kernel as printed runs to the end, faults nowhere, and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories that agree on the arguments, the kernel's result array and the reference's both end at the channel
    attention of the arguments. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
